-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x50 : S_.BroadcastsInDim S1600000x50 (![] : Fin 0 → Fin S1600000x50.rank)
  reducesTo_S1600000x50_S_d0_1 : S1600000x50.ReducesTo [0, 1] S_
  bcast_S_S95x128 : S_.BroadcastsInDim S95x128 (![] : Fin 0 → Fin S95x128.rank)
  reducesTo_S95x128_S_d0_1 : S95x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x50 .f32) (main_arg7 : FVec F S128 .f32) (main_arg8 : FVec F S128x256 .f32) (main_arg9 : FVec F S128 .f32) (main_v13 : IVec S_ 1) (main_v16 : IVec S95x128 1) : IVec S_ 1 :=
  let main_c_5 : IVec S_ 1 := constantI S_ 1 1#1
  let main_v17 : IVec S_ 1 := (fun x v => Host.reduce IntOp.andi x v reducesTo_S95x128_S_d0_1 h_S_) main_v16 main_c_5
  let main_v18 : IVec S_ 1 := andi main_v13 main_v17
  let main_v19 : FVec F S128x50 .f32 := Host.absf main_arg6
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_v33

def fn {F : FTy → Type} [FloatOps F] (main_arg0 : IVec S100000 32) (main_arg1 : FVec F S100000x128 .f32) (main_arg2 : IVec S2x1600000 32) (main_arg3 : FVec F S1600000 .f32) (main_arg4 : FVec F S1600000x50 .f32) (main_arg5 : FVec F S95x128 .f32) (main_arg6 : FVec F S128x50 .f32) (main_arg7 : FVec F S128 .f32) (main_arg8 : FVec F S128x256 .f32) (main_arg9 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x50 .f32 := Host.absf main_arg4
  let main_cst_2 : FVec F S_ .f32 := constant S_ .f32 0x7F800000#32
  let main_v10 : FVec F S1600000x50 .f32 := broadcastInDim S1600000x50 ![] bcast_S_S1600000x50 main_cst_2
  let main_v11 : IVec S1600000x50 1 := cmpf .olt main_v9 main_v10
  let main_c_3 : IVec S_ 1 := constantI S_ 1 1#1
  let main_v12 : IVec S_ 1 := (fun x v => Host.reduce IntOp.andi x v reducesTo_S1600000x50_S_d0_1 h_S_) main_v11 main_c_3
  let main_v13 : IVec S_ 1 := andi main_v8 main_v12
  let main_v14 : FVec F S95x128 .f32 := Host.absf main_arg5
  let main_cst_4 : FVec F S_ .f32 := constant S_ .f32 0x7F800000#32
  let main_v15 : FVec F S95x128 .f32 := broadcastInDim S95x128 ![] bcast_S_S95x128 main_cst_4
  let main_v16 : IVec S95x128 1 := cmpf .olt main_v14 main_v15
  fn_part1 (F := F) main_arg6 main_arg7 main_arg8 main_arg9 main_v13 main_v16
-- ==== Kernel.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S100000x1 : Shape := ⟨2, ![100000, 1]⟩
abbrev S1x1600000 : Shape := ⟨2, ![1, 1600000]⟩
abbrev S1600000x1 : Shape := ⟨2, ![1600000, 1]⟩
abbrev S1600000x128 : Shape := ⟨2, ![1600000, 128]⟩
abbrev S50x128 : Shape := ⟨2, ![50, 128]⟩
abbrev S1x128 : Shape := ⟨2, ![1, 128]⟩
abbrev S12800x50 : Shape := ⟨2, ![12800, 50]⟩
abbrev S12800x1 : Shape := ⟨2, ![12800, 1]⟩
abbrev S12800x128 : Shape := ⟨2, ![12800, 128]⟩
abbrev S128x128 : Shape := ⟨2, ![128, 128]⟩
abbrev S10000x128 : Shape := ⟨2, ![10000, 128]⟩

abbrev nBuf : Space → Nat
  | .hbm => 53
  | .vmem => 19
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S2x1600000, .i32⟩
  | .hbm, ⟨3, _⟩ => ⟨S1600000, .f32⟩
  | .hbm, ⟨4, _⟩ => ⟨S1600000x50, .f32⟩
  | .hbm, ⟨5, _⟩ => ⟨S95x128, .f32⟩
  | .hbm, ⟨6, _⟩ => ⟨S128x50, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S50x128, .f32⟩
  | .hbm, ⟨31, _⟩ => ⟨S1x128, .f32⟩
  | .hbm, ⟨32, _⟩ => ⟨S1600000x1, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1x1600000, .i32⟩
  | .hbm, ⟨37, _⟩ => ⟨S1600000, .i32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S100000x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x128, .f32⟩
  | .local _ .vmem, ⟨0, _⟩ => ⟨S12800x50, .f32⟩
  | .local _ .vmem, ⟨1, _⟩ => ⟨S12800x50, .f32⟩
  | .local _ .vmem, ⟨2, _⟩ => ⟨S50x128, .f32⟩
  | .local _ .vmem, ⟨3, _⟩ => ⟨S1x128, .f32⟩
  | .local _ .vmem, ⟨4, _⟩ => ⟨S12800x1, .f32⟩
  | .local _ .vmem, ⟨5, _⟩ => ⟨S12800x1, .f32⟩
  | .local _ .vmem, ⟨6, _⟩ => ⟨S12800x128, .f32⟩
  | .local _ .vmem, ⟨7, _⟩ => ⟨S12800x128, .f32⟩
  | .local _ .vmem, ⟨8, _⟩ => ⟨S12800x128, .f32⟩
  | .local _ .vmem, ⟨9, _⟩ => ⟨S12800x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12800x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12800x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x50_S50x128_1_0 : S128x50.Transposes [1, 0] S50x128
  shapeCasts_S128_S1x128 : S128.ShapeCasts S1x128
  shapeCasts_S1600000_S1600000x1 : S1600000.ShapeCasts S1600000x1
  inb_S12800x50_S12800x50_0_0 : ∀ a, (![0, 0] : Fin 2 → Nat) a + S12800x50.size a ≤ S12800x50.size a
  h_S12800x50 : 0 < S12800x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12800x128 : S1x128.Broadcasts S12800x128
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x128 : S12800x1.Broadcasts S12800x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  bcast_S_S100000x128 : S_.BroadcastsInDim S100000x128 (![] : Fin 0 → Fin S100000x128.rank)
  slices_S2x1600000_S1x1600000_0_0 : S2x1600000.Slices ![0, 0] S1x1600000
  slices_S128x256_S128x128_0_0 : S128x256.Slices ![0, 0] S128x128
  transposes_S128x128_S128x128_1_0 : S128x128.Transposes [1, 0] S128x128
  slices_S128x256_S128x128_0_128 : S128x256.Slices ![0, 128] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S10000x128 : S1x128.Broadcasts S10000x128
  gather_S95x128_S100000x1_S100000x128_1_0_n_n_0_1_1128_wf : GatherDims.WF S95x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  dot_S12800x50_S50x128_S12800x128_1_0_0_1_n_n_wf : DotDims.WF S12800x50 S50x128 S12800x128 [1] [0] [0] [1] [] []
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x50.size a ≤ S1600000x50.size a
  hwx0_0 : ∀ i : grid0.Coords, EltTy.bits .f32 = 32 ∨ (Rect.block (s := S1600000x50) S12800x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x128.size a ≤ S50x128.size a
  hwx0_1 : ∀ i : grid0.Coords, EltTy.bits .f32 = 32 ∨ (Rect.block (s := S50x128) S50x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12800x1.size a ≤ S1600000x1.size a
  hwx0_3 : ∀ i : grid0.Coords, EltTy.bits .f32 = 32 ∨ (Rect.block (s := S1600000x1) S12800x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12800x128.size a ≤ S1600000x128.size a
  hwx0_4 : ∀ i : grid0.Coords, EltTy.bits .f32 = 32 ∨ (Rect.block (s := S1600000x128) S12800x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x128.size a ≤ S1600000x128.size a
  hwx0_5 : ∀ i : grid0.Coords, EltTy.bits .f32 = 32 ∨ (Rect.block (s := S1600000x128) S12800x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S12800x50_S50x128_S12800x128_1_0_0_1_n_n : DotDims S12800x50 S50x128 S12800x128 where
  lhsContracting := [1]
  rhsContracting := [0]
  lhsNonContracting := [0]
  rhsNonContracting := [1]
  lhsBatch := []
  rhsBatch := []
  wf := dot_S12800x50_S50x128_S12800x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg4) S12800x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S50x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S12800x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S12800x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S12800x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S50x128 : Shape := ⟨2, ![50, 128]⟩
abbrev S1600000x128 : Shape := ⟨2, ![1600000, 128]⟩
abbrev S1x128 : Shape := ⟨2, ![1, 128]⟩
abbrev S1600000x1 : Shape := ⟨2, ![1600000, 1]⟩
abbrev S100000x1 : Shape := ⟨2, ![100000, 1]⟩
abbrev S1x1600000 : Shape := ⟨2, ![1, 1600000]⟩
abbrev S100000x256 : Shape := ⟨2, ![100000, 256]⟩
abbrev S256x128 : Shape := ⟨2, ![256, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S2x1600000, .i32⟩
  | .hbm, ⟨3, _⟩ => ⟨S1600000, .f32⟩
  | .hbm, ⟨4, _⟩ => ⟨S1600000x50, .f32⟩
  | .hbm, ⟨5, _⟩ => ⟨S95x128, .f32⟩
  | .hbm, ⟨6, _⟩ => ⟨S128x50, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S_, .f32⟩
  | .hbm, ⟨18, _⟩ => ⟨S1600000, .f32⟩
  | .hbm, ⟨19, _⟩ => ⟨S1600000, .f32⟩
  | .hbm, ⟨20, _⟩ => ⟨S_, .f32⟩
  | .hbm, ⟨21, _⟩ => ⟨S1600000, .f32⟩
  | .hbm, ⟨22, _⟩ => ⟨S1600000, .i1⟩
  | .hbm, ⟨23, _⟩ => ⟨S_, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S50x128, .f32⟩
  | .hbm, ⟨28, _⟩ => ⟨S1600000x128, .f32⟩
  | .hbm, ⟨29, _⟩ => ⟨S1x128, .f32⟩
  | .hbm, ⟨30, _⟩ => ⟨S1600000x128, .f32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x128, .f32⟩
  | .hbm, ⟨44, _⟩ => ⟨S1x1600000, .i32⟩
  | .hbm, ⟨45, _⟩ => ⟨S1600000, .i32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1x1600000, .i32⟩
  | .hbm, ⟨59, _⟩ => ⟨S1600000, .i32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S100000x128, .f32⟩
  | .hbm, ⟨69, _⟩ => ⟨S100000x256, .f32⟩
  | .hbm, ⟨70, _⟩ => ⟨S256x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  transposes_S128x50_S50x128_1_0 : S128x50.Transposes [1, 0] S50x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  slices_S2x1600000_S1x1600000_0_0 : S2x1600000.Slices ![0, 0] S1x1600000
  concatenates_S100000x128_S100000x128_S100000x256_d1 : Shape.Concatenates [S100000x128, S100000x128] S100000x256 1
  transposes_S128x256_S256x128_1_0 : S128x256.Transposes [1, 0] S256x128
  bcast_S1x128_S100000x128_0_1 : S1x128.BroadcastsInDim S100000x128 (![0, 1] : Fin 2 → Fin S100000x128.rank)
  dot_S1600000x50_S50x128_S1600000x128_1_0_0_1_n_n_wf : DotDims.WF S1600000x50 S50x128 S1600000x128 [1] [0] [0] [1] [] []
  gather_S95x128_S100000x1_S100000x128_1_0_n_n_0_1_1128_wf : GatherDims.WF S95x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf
def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's whole run, with its result array named.

  The program is two pipelined kernel regions between stretches of host operations. Its run is the chain of four
  segments: host operations, the edge kernel over 125 blocks of 12800 edges, host operations (the scatter-add and
  the weight slices), the combine kernel over 10 blocks of 10000 nodes. At the end every unscoped buffer holds the
  contents the last boundary names; read at the result buffer this gives the result array, read at the ten argument
  buffers it gives back the arguments, which no segment writes.
-/
import proofs.«147884_j19808389169521_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents
    of the last segment boundary, and each argument array ends as launched. -/
theorem run_named : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.Stretches.lean ====
/-
  The two stretches of host operations of the idealized kernel, read back.

  The first stretch prepares the edge kernel's operands from the arguments: the neighbour embeddings gathered per
  edge (the type embedding looked up per node, then looked up per edge's second endpoint, negative indices wrapped),
  the dense weights transposed, the bias as a one-row array and the edge lengths as a one-column array. The second
  prepares the combine kernel's: the messages scatter-added into a zero array at each edge's first endpoint, the two
  halves of the combine weights transposed, the bias as a one-row array. Each is a composition of whole-array
  operations of the buffers the stretch is entered with; the gather and the scatter's index chain are the very
  compositions the reference makes, so they are written with the reference's stage functions.
-/
import proofs.«147884_j19808389169521_2_alg».proof.Proof.Gen.KernelIdeal.Launch
import proofs.«147884_j19808389169521_2_alg».proof.Proof.Gen.ReferenceIdeal.Read
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-! ## Before the edge kernel -/

theorem first_arg4 : StableHlo.after (hostOps0 (F := Ideal)) W (Proc.devRef .tc main_arg4) = W (Proc.devRef .tc main_arg4) := by
  after_results_simp <;> rfl
theorem first_arg1 : StableHlo.after (hostOps0 (F := Ideal)) W (Proc.devRef .tc main_arg1) = W (Proc.devRef .tc main_arg1) := by
  after_results_simp <;> rfl
theorem first_arg2 : StableHlo.after (hostOps0 (F := Ideal)) W (Proc.devRef .tc main_arg2) = W (Proc.devRef .tc main_arg2) := by
  after_results_simp <;> rfl
theorem first_arg8 : StableHlo.after (hostOps0 (F := Ideal)) W (Proc.devRef .tc main_arg8) = W (Proc.devRef .tc main_arg8) := by
  after_results_simp <;> rfl
theorem first_arg9 : StableHlo.after (hostOps0 (F := Ideal)) W (Proc.devRef .tc main_arg9) = W (Proc.devRef .tc main_arg9) := by
  after_results_simp <;> rfl

/-- The dense weights, transposed. -/
theorem first_weights : StableHlo.after (hostOps0 (F := Ideal)) W (Proc.devRef .tc main_v16)
    = transpose S50x128 [1, 0] (W (Proc.devRef .tc main_arg6)) Facts₀.transposes_S128x50_S50x128_1_0 := by
  after_results_simp <;> rfl

/-- The dense bias as a one-row array. -/
theorem first_bias : StableHlo.after (hostOps0 (F := Ideal)) W (Proc.devRef .tc main_v17)
    = shapeCast S1x128 (W (Proc.devRef .tc main_arg7)) Facts₀.shapeCasts_S128_S1x128 := by
  after_results_simp <;> rfl

/-- The edge lengths as a one-column array. -/
theorem first_lengths : StableHlo.after (hostOps0 (F := Ideal)) W (Proc.devRef .tc main_v18)
    = shapeCast S1600000x1 (W (Proc.devRef .tc main_arg3)) Facts₀.shapeCasts_S1600000_S1600000x1 := by
  after_results_simp <;> rfl

/-- The neighbour embeddings per edge: the reference's own two gathers of the same arguments. -/
theorem first_neighbours : StableHlo.after (hostOps0 (F := Ideal)) W (Proc.devRef .tc main_v15)
    = Cert.ReferenceIdeal.Read.val_main_v33 (F := Ideal) (W (Proc.devRef .tc main_arg0)) (W (Proc.devRef .tc main_arg2))
        (W (Proc.devRef .tc main_arg5)) := by
  after_results_simp <;> rfl

/-! ## Between the two kernels -/

theorem second_arg1 : StableHlo.after (hostOps1 (F := Ideal)) W (Proc.devRef .tc main_arg1) = W (Proc.devRef .tc main_arg1) := by
  after_results_simp <;> rfl

/-- The aggregated messages: the reference's own scatter-add, into its zero array at its index chain, of whatever
    message array the stretch is entered with. -/
theorem second_aggregate : StableHlo.after (hostOps1 (F := Ideal)) W (Proc.devRef .tc main_v29)
    = Host.scatterAdd (F := Ideal) (φ := .f32) Cert.ReferenceIdeal.scatter_S100000x128_S1600000x1_S1600000x128_1_0_0_1
        (Cert.ReferenceIdeal.Read.val_main_v35 (F := Ideal))
        (Cert.ReferenceIdeal.Read.val_main_v43 (F := Ideal) (W (Proc.devRef .tc main_arg2)))
        (W (Proc.devRef .tc main_v19) : Vec Ideal S1600000x128 .f32) := by
  after_results_simp <;> rfl

/-- The first half of the combine weights (columns 0 … 127), transposed. -/
theorem second_weights_lo : StableHlo.after (hostOps1 (F := Ideal)) W (Proc.devRef .tc main_v31)
    = transpose S128x128 [1, 0] (extractStridedSlice S128x128 ![0, 0] (W (Proc.devRef .tc main_arg8)) Facts₀.slices_S128x256_S128x128_0_0)
        Facts₀.transposes_S128x128_S128x128_1_0 := by
  after_results_simp <;> rfl

/-- The second half of the combine weights (columns 128 … 255), transposed. -/
theorem second_weights_hi : StableHlo.after (hostOps1 (F := Ideal)) W (Proc.devRef .tc main_v33)
    = transpose S128x128 [1, 0] (extractStridedSlice S128x128 ![0, 128] (W (Proc.devRef .tc main_arg8)) Facts₀.slices_S128x256_S128x128_0_128)
        Facts₀.transposes_S128x128_S128x128_1_0 := by
  after_results_simp <;> rfl

/-- The combine bias as a one-row array. -/
theorem second_bias : StableHlo.after (hostOps1 (F := Ideal)) W (Proc.devRef .tc main_v34)
    = shapeCast S1x128 (W (Proc.devRef .tc main_arg9)) Facts₀.shapeCasts_S128_S1x128 := by
  after_results_simp <;> rfl

end Cert.KernelIdeal.Stretch

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«147884_j19808389169521_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«147884_j19808389169521_2_alg».proof.Proof.LibDenseRows
import proofs.«147884_j19808389169521_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Payloads.lean ====
/-
  The two kernel bodies, read at one entry.

  The edge body stores, at row p and feature q of its block, the dense layer's entry
  (∑ₖ attr (p, k) · w (k, q) + b q) times the cosine cutoff of the edge's length times the neighbour's embedding;
  the cutoff of a length r is ½ · (cos (r · π/5) + 1) when r < 5 and 0 otherwise, with the four constants the
  values their 32-bit patterns denote. The combine body stores the sum of two 128-term products plus a bias.
  Every sum is the commutative sum of the extended reals, so no order of accumulation is left in these readings.
-/
import proofs.«147884_j19808389169521_2_alg».proof.Proof.Gen.KernelIdeal.Skeleton
import proofs.«147884_j19808389169521_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-- The cosine cutoff of one edge length, on the extended reals. -/
def cutoff (r : EReal) : EReal :=
  Scalar.select (FloatOps.cmpf (F := Ideal) (φ := .f32) .olt r (Ideal.ofBits .f32 0x40A00000#32))
    (Ideal.ofBits .f32 0x3F000000#32 * (Ideal.cos (r * Ideal.ofBits .f32 0x3F20D97C#32) + Ideal.ofBits .f32 0x3F800000#32))
    (Ideal.ofBits .f32 0x00000000#32)

/-- The edge body's stored value at (p, q): dense entry times cutoff times the neighbour's embedding. -/
theorem edge_payload_apply (x0 : Vec Ideal S12800x50 .f32) (x1 : Vec Ideal S50x128 .f32) (x2 : Vec Ideal S1x128 .f32)
    (x3 : Vec Ideal S12800x1 .f32) (x4 : Vec Ideal S12800x128 .f32) (p : Fin 12800) (q : Fin 128) :
    k0_pay1 x0 x1 x2 x3 x4 (ix2 p q)
      = (((∑ k : Fin 50, x0 (ix2 p k) * x1 (ix2 k q)) + x2 (ix2 (0 : Fin 1) q)) * cutoff (x3 (ix2 p (0 : Fin 1)))) * x4 (ix2 p q) := by
  unfold k0_pay1
  simp only [shapeCast_self]
  refine congrArg₂ (· * ·) (congrArg₂ (· * ·) (congrArg₂ (· + ·) ?_ ?_) ?_) rfl
  · exact Cert.PlainLayers.plainMM_of_eq _ rfl none x0 x1 p q
  · exact broadcastTo_1b_ab_apply x2 _ p q
  · exact (Cert.Columns.broadcastTo_a1_ab_apply _ _ p q).trans rfl

/-- The combine body's stored value at (p, q): two 128-term products and the bias. -/
theorem combine_payload_apply (x0 x1 : Vec Ideal S10000x128 .f32) (x2 x3 : Vec Ideal S128x128 .f32) (x4 : Vec Ideal S1x128 .f32)
    (p : Fin 10000) (q : Fin 128) :
    k1_pay1 x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k1_pay1
  simp only [shapeCast_self]
  refine congrArg₂ (· + ·) (congrArg₂ (· + ·) ?_ ?_) ?_
  · exact Cert.PlainLayers.plainMM_of_eq _ rfl none x0 x2 p q
  · exact Cert.PlainLayers.plainMM_of_eq _ rfl none x1 x3 p q
  · exact broadcastTo_1b_ab_apply x4 _ p q

end Cert.KernelIdeal.Bodies

end
-- ==== Proof.Edge.lean ====
/-
  The edge kernel's output array as one function of the arrays it is launched on.

  Grid point t handles the block of edges 12800·t … 12800·t + 12799: it reads that block of the edge attributes, of
  the edge lengths (kept as a one-column array) and of the gathered neighbour embeddings, the whole 50×128 weight
  matrix and the one bias row, and writes that block of the messages. Every written block is one whole-array
  function restricted to the block, and the 125 blocks tile the 1600000 rows: the array after the region is that
  function — at edge e and feature h, (∑ₖ attr (e, k) · w (k, h) + b h) · cutoff (length e) · embedding (e, h).
-/
import proofs.«147884_j19808389169521_2_alg».proof.Proof.Gen.KernelIdeal.Frame
import proofs.«147884_j19808389169521_2_alg».proof.Proof.Payloads

set_option maxRecDepth 16384

noncomputable section

open scoped BigOperators

namespace Cert.KernelIdeal.Edge

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Edge e's message feature h. -/
def entry (ea : Vec Ideal S1600000x50 .f32) (w : Vec Ideal S50x128 .f32) (b : Vec Ideal S1x128 .f32)
    (r : Vec Ideal S1600000x1 .f32) (x : Vec Ideal S1600000x128 .f32) (e : Fin 1600000) (h : Fin 128) : EReal :=
  (((∑ k : Fin 50, ea (ix2 e k) * w (ix2 k h)) + b (ix2 (0 : Fin 1) h)) * cutoff (r (ix2 e (0 : Fin 1)))) * x (ix2 e h)

/-- The whole message array. -/
def whole (ea : Vec Ideal S1600000x50 .f32) (w : Vec Ideal S50x128 .f32) (b : Vec Ideal S1x128 .f32)
    (r : Vec Ideal S1600000x1 .f32) (x : Vec Ideal S1600000x128 .f32) : Vec Ideal S1600000x128 .f32 :=
  fun i => entry ea w b r x (i 0) (i 1)

theorem zero_offsets : (![0, 0] : Fin 2 → Nat) = fun _ => 0 := funext fun a => by fin_cases a <;> rfl

/-- The index maps over the grid: the three row-blocked inputs move with the output; the weights and the bias sit
    at block (0, 0); the output's block row is the point's number. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_5.index t (0 : Fin 2) ∧ win0_3.index t (1 : Fin 2) = 0
    ∧ win0_4.index t (0 : Fin 2) = win0_5.index t (0 : Fin 2) ∧ win0_4.index t (1 : Fin 2) = 0
    ∧ win0_5.index t (0 : Fin 2) = t.val ∧ win0_5.index t (1 : Fin 2) = 0 :=
  (by decide +kernel : ∀ t : Fin grid0.N, _)

/-- What point t writes back is block t of the whole-array function of the arrays the region is entered with. -/
theorem flushed_eq (c : Dev nD) (t : Fin cfg0.N) :
    (dat0 V c).flushed 5 t = ((cfg0.win 5).blk t).view.read (Elt Ideal)
      (whole (V c main_arg4) (V c main_v16) (V c main_v17) (V c main_v18) (V c main_v15)) := by
  show (cfg0.win 5).cut (grid0.coords t) ((dat0 V c).after 5 t) = _
  rw [after0_5]
  unfold out0_5
  rw [View.canon_unit_zero zero_offsets]
  simp only [View.ld_unit_zero (S := S12800x50) zero_offsets, View.ld_unit_zero (S := S50x128) zero_offsets,
    View.ld_unit_zero (S := S1x128) zero_offsets, View.ld_unit_zero (S := S12800x1) zero_offsets,
    View.ld_unit_zero (S := S12800x128) zero_offsets]
  obtain ⟨e00, e01, e10, e11, e20, e21, e30, e31, e40, e41, e50, e51⟩ := index_facts t
  funext j
  obtain ⟨p, q, rfl⟩ : ∃ (p : Fin 12800) (q : Fin 128), j = ix2 p q := ⟨j 0, j 1, eq_ix2 j⟩
  have ht : t.val < 125 := lt_of_lt_of_eq t.isLt N_0
  have hp : p.val < 12800 := p.isLt
  let n : Fin 1600000 := ⟨win0_5.index t (0 : Fin 2) * 12800 + p.val, by omega⟩
  have h5 : ((cfg0.win 5).blk t).view.emb (ix2 p q) = ix2 n q := by
    funext a; apply Fin.ext
    match a with
    | ⟨0, _⟩ => show win0_5.index t (0 : Fin 2) * 12800 + 1 * p.val = win0_5.index t (0 : Fin 2) * 12800 + p.val; omega
    | ⟨1, _⟩ => show win0_5.index t (1 : Fin 2) * 128 + 1 * q.val = q.val; omega
  have h0 : ∀ k : Fin 50, ((cfg0.win 0).blk t).view.emb (ix2 p k) = ix2 n k := fun k => by
    funext a; apply Fin.ext
    match a with
    | ⟨0, _⟩ => show win0_0.index t (0 : Fin 2) * 12800 + 1 * p.val = win0_5.index t (0 : Fin 2) * 12800 + p.val; omega
    | ⟨1, _⟩ => show win0_0.index t (1 : Fin 2) * 50 + 1 * k.val = k.val; omega
  have h1 : ∀ k : Fin 50, ((cfg0.win 1).blk t).view.emb (ix2 k q) = ix2 k q := fun k => by
    funext a; apply Fin.ext
    match a with
    | ⟨0, _⟩ => show win0_1.index t (0 : Fin 2) * 50 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have h3 : ((cfg0.win 3).blk t).view.emb (ix2 p (0 : Fin 1)) = ix2 n (0 : Fin 1) := by
    funext a; apply Fin.ext
    match a with
    | ⟨0, _⟩ => show win0_3.index t (0 : Fin 2) * 12800 + 1 * p.val = win0_5.index t (0 : Fin 2) * 12800 + p.val; omega
    | ⟨1, _⟩ => show win0_3.index t (1 : Fin 2) * 1 + 1 * 0 = 0; omega
  have h4 : ((cfg0.win 4).blk t).view.emb (ix2 p q) = ix2 n q := by
    funext a; apply Fin.ext
    match a with
    | ⟨0, _⟩ => show win0_4.index t (0 : Fin 2) * 12800 + 1 * p.val = win0_5.index t (0 : Fin 2) * 12800 + p.val; omega
    | ⟨1, _⟩ => show win0_4.index t (1 : Fin 2) * 128 + 1 * q.val = q.val; omega
  have r0 : ∀ k : Fin 50, iblk0 V c 0 t (ix2 p k) = V c main_arg4 (ix2 n k) := fun k => congrArg (V c main_arg4) (h0 k)
  have r1 : ∀ k : Fin 50, iblk0 V c 1 t (ix2 k q) = V c main_v16 (ix2 k q) := fun k => congrArg (V c main_v16) (h1 k)
  have r2 : iblk0 V c 2 t (ix2 (0 : Fin 1) q) = V c main_v17 (ix2 (0 : Fin 1) q) := congrArg (V c main_v17) h2
  have r3 : iblk0 V c 3 t (ix2 p (0 : Fin 1)) = V c main_v18 (ix2 n (0 : Fin 1)) := congrArg (V c main_v18) h3
  have r4 : iblk0 V c 4 t (ix2 p q) = V c main_v15 (ix2 n q) := congrArg (V c main_v15) h4
  show k0_pay1 (iblk0 V c 0 t) (iblk0 V c 1 t) (iblk0 V c 2 t) (iblk0 V c 3 t) (iblk0 V c 4 t) (ix2 p q)
    = whole (V c main_arg4) (V c main_v16) (V c main_v17) (V c main_v18) (V c main_v15) (((cfg0.win 5).blk t).view.emb (ix2 p q))
  rw [h5]
  refine (edge_payload_apply (iblk0 V c 0 t) (iblk0 V c 1 t) (iblk0 V c 2 t) (iblk0 V c 3 t) (iblk0 V c 4 t) p q).trans ?_
  simp only [r0, r1, r2, r3, r4]
  rfl

/-- An index of the output lies in point t's block iff each coordinate is in the block's range on its axis. -/
theorem mem_blk (t : Fin cfg0.N) (i : S1600000x128.Idx) :
    i ∈ ((cfg0.win 5).blk t).view.set ↔ ∀ a : Fin 2, win0_5.index t a * S12800x128.size a ≤ (i a).val
      ∧ (i a).val < win0_5.index t a * S12800x128.size a + S12800x128.size a := by
  show i ∈ ((View.whole main_v19).slice (win0_5.rect t)).set ↔ _
  rw [View.set_slice_whole, Rect.mem_set_unit]
  exact Iff.rfl

/-- Every output index is written by the point that owns its row: point (row / 12800). -/
theorem cover (i : S1600000x128.Idx) :
    ∃ t : Fin cfg0.N, (cfg0.win 5).flush t = true ∧ i ∈ ((cfg0.win 5).blk t).view.set := by
  have hi0 : (i 0).val < 1600000 := (i 0).isLt
  have hi1 : (i 1).val < 128 := (i 1).isLt
  have hN : cfg0.N = 125 := N_0
  let t : Fin cfg0.N := ⟨(i 0).val / 12800, by rw [hN]; omega⟩
  obtain ⟨-, -, -, -, -, -, -, -, -, -, e50, e51⟩ := index_facts t
  have e50' : win0_5.index t (0 : Fin 2) = (i 0).val / 12800 := e50
  refine ⟨t, flush0_5 t, ?_⟩
  rw [mem_blk]
  intro a
  match a with
  | ⟨0, _⟩ => show win0_5.index t (0 : Fin 2) * 12800 ≤ (i 0).val ∧ (i 0).val < win0_5.index t (0 : Fin 2) * 12800 + 12800; omega
  | ⟨1, _⟩ => show win0_5.index t (1 : Fin 2) * 128 ≤ (i 1).val ∧ (i 1).val < win0_5.index t (1 : Fin 2) * 128 + 128; omega

/-- The message array after the region: the whole-array function of the arrays the region is entered with. -/
theorem final (c : Dev nD) : (dat0 V c).arrAt 5 cfg0.N
    = whole (V c main_arg4) (V c main_v16) (V c main_v17) (V c main_v18) (V c main_v15) :=
  (dat0 V c).arrAt_eq_of_cover 5 _ (fun t _ => flushed_eq V c t) cover

end Cert.KernelIdeal.Edge

end
-- ==== Proof.Combine.lean ====
/-
  The combine kernel's output array as one function of the arrays it is launched on.

  Grid point t handles the block of nodes 10000·t … 10000·t + 9999: it reads that block of the node features and of
  the aggregated messages, the two whole 128×128 weight matrices and the one bias row, and writes that block of the
  output. So every written block is the same whole-array function restricted to the block, and the ten blocks tile
  the 100000 rows: the array after the region is that function.
-/
import proofs.«147884_j19808389169521_2_alg».proof.Proof.Gen.KernelIdeal.Frame
import proofs.«147884_j19808389169521_2_alg».proof.Proof.Payloads

set_option maxRecDepth 16384

noncomputable section

open scoped BigOperators

namespace Cert.KernelIdeal.Combine

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Node n's output feature h: the node's features through the first weight matrix, its aggregated messages
    through the second, and the bias. -/
def entry (nf agg : Vec Ideal S100000x128 .f32) (w1 w2 : Vec Ideal S128x128 .f32) (b : Vec Ideal S1x128 .f32)
    (n : Fin 100000) (h : Fin 128) : EReal :=
  ((∑ k : Fin 128, nf (ix2 n k) * w1 (ix2 k h)) + ∑ k : Fin 128, agg (ix2 n k) * w2 (ix2 k h)) + b (ix2 (0 : Fin 1) h)

/-- The whole output array. -/
def whole (nf agg : Vec Ideal S100000x128 .f32) (w1 w2 : Vec Ideal S128x128 .f32) (b : Vec Ideal S1x128 .f32) :
    Vec Ideal S100000x128 .f32 := fun i => entry nf agg w1 w2 b (i 0) (i 1)

theorem zero_offsets : (![0, 0] : Fin 2 → Nat) = fun _ => 0 := funext fun a => by fin_cases a <;> rfl

/-- The index maps over the grid: the two row-blocked inputs move with the output; the weights and the bias sit at
    block (0, 0); the output's block row is the point's number. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the whole-array function of the arrays the region is entered with. -/
theorem flushed_eq (c : Dev nD) (t : Fin cfg1.N) :
    (dat1 V c).flushed 5 t = ((cfg1.win 5).blk t).view.read (Elt Ideal)
      (whole (V c main_arg1) (V c main_v29) (V c main_v31) (V c main_v33) (V c main_v34)) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e50, e51⟩ := index_facts t
  funext j
  obtain ⟨p, q, rfl⟩ : ∃ (p : Fin 10000) (q : Fin 128), j = ix2 p q := ⟨j 0, j 1, eq_ix2 j⟩
  have ht : t.val < 10 := lt_of_lt_of_eq t.isLt N_1
  have hp : p.val < 10000 := p.isLt
  let n : Fin 100000 := ⟨win1_5.index t (0 : Fin 2) * 10000 + p.val, by omega⟩
  have h5 : ((cfg1.win 5).blk t).view.emb (ix2 p q) = ix2 n q := by
    funext a; apply Fin.ext
    match a with
    | ⟨0, _⟩ => show win1_5.index t (0 : Fin 2) * 10000 + 1 * p.val = win1_5.index t (0 : Fin 2) * 10000 + p.val; omega
    | ⟨1, _⟩ => show win1_5.index t (1 : Fin 2) * 128 + 1 * q.val = q.val; omega
  have h0 : ∀ k : Fin 128, ((cfg1.win 0).blk t).view.emb (ix2 p k) = ix2 n k := fun k => by
    funext a; apply Fin.ext
    match a with
    | ⟨0, _⟩ => show win1_0.index t (0 : Fin 2) * 10000 + 1 * p.val = win1_5.index t (0 : Fin 2) * 10000 + p.val; omega
    | ⟨1, _⟩ => show win1_0.index t (1 : Fin 2) * 128 + 1 * k.val = k.val; omega
  have h1 : ∀ k : Fin 128, ((cfg1.win 1).blk t).view.emb (ix2 p k) = ix2 n k := fun k => by
    funext a; apply Fin.ext
    match a with
    | ⟨0, _⟩ => show win1_1.index t (0 : Fin 2) * 10000 + 1 * p.val = win1_5.index t (0 : Fin 2) * 10000 + p.val; omega
    | ⟨1, _⟩ => show win1_1.index t (1 : Fin 2) * 128 + 1 * k.val = k.val; omega
  have h2 : ∀ k : Fin 128, ((cfg1.win 2).blk t).view.emb (ix2 k q) = ix2 k q := fun k => by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  have h3 : ∀ k : Fin 128, ((cfg1.win 3).blk t).view.emb (ix2 k q) = ix2 k q := fun k => by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have h4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have r0 : ∀ k : Fin 128, iblk1 V c 0 t (ix2 p k) = V c main_arg1 (ix2 n k) := fun k => congrArg (V c main_arg1) (h0 k)
  have r1 : ∀ k : Fin 128, iblk1 V c 1 t (ix2 p k) = V c main_v29 (ix2 n k) := fun k => congrArg (V c main_v29) (h1 k)
  have r2 : ∀ k : Fin 128, iblk1 V c 2 t (ix2 k q) = V c main_v31 (ix2 k q) := fun k => congrArg (V c main_v31) (h2 k)
  have r3 : ∀ k : Fin 128, iblk1 V c 3 t (ix2 k q) = V c main_v33 (ix2 k q) := fun k => congrArg (V c main_v33) (h3 k)
  have r4 : iblk1 V c 4 t (ix2 (0 : Fin 1) q) = V c main_v34 (ix2 (0 : Fin 1) q) := congrArg (V c main_v34) h4
  show k1_pay1 (iblk1 V c 0 t) (iblk1 V c 1 t) (iblk1 V c 2 t) (iblk1 V c 3 t) (iblk1 V c 4 t) (ix2 p q)
    = whole (V c main_arg1) (V c main_v29) (V c main_v31) (V c main_v33) (V c main_v34) (((cfg1.win 5).blk t).view.emb (ix2 p q))
  rw [h5]
  refine (combine_payload_apply (iblk1 V c 0 t) (iblk1 V c 1 t) (iblk1 V c 2 t) (iblk1 V c 3 t) (iblk1 V c 4 t) p q).trans ?_
  simp only [r0, r1, r2, r3, r4]
  rfl

/-- An index of the output lies in point t's block iff each coordinate is in the block's range on its axis. -/
theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v35).slice (win1_5.rect t)).set ↔ _
  rw [View.set_slice_whole, Rect.mem_set_unit]
  exact Iff.rfl

/-- Every output index is written by the point that owns its row: point (row / 10000). -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, -, -, -, -, e50, e51⟩ := index_facts t
  have e50' : win1_5.index t (0 : Fin 2) = (i 0).val / 10000 := e50
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The output array after the region: the whole-array function of the arrays the region is entered with. -/
theorem final (c : Dev nD) : (dat1 V c).arrAt 5 cfg1.N
    = whole (V c main_arg1) (V c main_v29) (V c main_v31) (V c main_v33) (V c main_v34) :=
  (dat1 V c).arrAt_eq_of_cover 5 _ (fun t _ => flushed_eq V c t) cover

end Cert.KernelIdeal.Combine

end
-- ==== Proof.Result.lean ====
/-
  The network layer both programs compute, as one function of the ten argument arrays.

  messages (e, h) = (∑ₖ attr (e, k) · W (h, k) + b h) · cutoff (length e) · emb (type of e's second endpoint, h);
  aggregate = the messages scatter-added, from zero, at each edge's first endpoint;
  result (n, h) = ∑ₖ feat (n, k) · C (h, k) + ∑ₖ aggregate (n, k) · C (h, 128 + k) + c h.
  The two look-ups and the scatter's index chain are kept as the whole-array operations the programs apply (both
  apply the same ones to the same arguments); the arithmetic is spelt entry by entry.
-/
import proofs.«147884_j19808389169521_2_alg».proof.Proof.Gen.ReferenceIdeal.Read
import proofs.«147884_j19808389169521_2_alg».proof.Proof.Edge
import proofs.«147884_j19808389169521_2_alg».proof.Proof.Combine

noncomputable section

namespace Cert.Whole

open Idealize.ShloMosaic

/-- The dense weights W, transposed to [50, 128]. -/
def denseWeights (x6 : (⟨Cert.ReferenceIdeal.S128x50, .f32⟩ : BufTy).Contents (Elt Ideal)) : Vec Ideal Cert.KernelIdeal.S50x128 .f32 :=
  transpose Cert.KernelIdeal.S50x128 [1, 0] x6 Cert.KernelIdeal.Facts₀.transposes_S128x50_S50x128_1_0

/-- A 128-vector as a one-row array. -/
def rowOf (x : (⟨Cert.ReferenceIdeal.S128, .f32⟩ : BufTy).Contents (Elt Ideal)) : Vec Ideal Cert.KernelIdeal.S1x128 .f32 :=
  shapeCast Cert.KernelIdeal.S1x128 x Cert.KernelIdeal.Facts₀.shapeCasts_S128_S1x128

/-- The edge lengths as a one-column array. -/
def lengthColumn (x3 : (⟨Cert.ReferenceIdeal.S1600000, .f32⟩ : BufTy).Contents (Elt Ideal)) : Vec Ideal Cert.KernelIdeal.S1600000x1 .f32 :=
  shapeCast Cert.KernelIdeal.S1600000x1 x3 Cert.KernelIdeal.Facts₀.shapeCasts_S1600000_S1600000x1

/-- Columns 0 … 127 of the combine weights C, transposed. -/
def weightsLo (x8 : (⟨Cert.ReferenceIdeal.S128x256, .f32⟩ : BufTy).Contents (Elt Ideal)) : Vec Ideal Cert.KernelIdeal.S128x128 .f32 :=
  transpose Cert.KernelIdeal.S128x128 [1, 0] (extractStridedSlice Cert.KernelIdeal.S128x128 ![0, 0] x8 Cert.KernelIdeal.Facts₀.slices_S128x256_S128x128_0_0)
    Cert.KernelIdeal.Facts₀.transposes_S128x128_S128x128_1_0

/-- Columns 128 … 255 of the combine weights C, transposed. -/
def weightsHi (x8 : (⟨Cert.ReferenceIdeal.S128x256, .f32⟩ : BufTy).Contents (Elt Ideal)) : Vec Ideal Cert.KernelIdeal.S128x128 .f32 :=
  transpose Cert.KernelIdeal.S128x128 [1, 0] (extractStridedSlice Cert.KernelIdeal.S128x128 ![0, 128] x8 Cert.KernelIdeal.Facts₀.slices_S128x256_S128x128_0_128)
    Cert.KernelIdeal.Facts₀.transposes_S128x128_S128x128_1_0

/-- The per-edge messages. -/
def messages (x0 : (⟨Cert.ReferenceIdeal.S100000, .i32⟩ : BufTy).Contents (Elt Ideal)) (x2 : (⟨Cert.ReferenceIdeal.S2x1600000, .i32⟩ : BufTy).Contents (Elt Ideal)) (x3 : (⟨Cert.ReferenceIdeal.S1600000, .f32⟩ : BufTy).Contents (Elt Ideal))
    (x4 : (⟨Cert.ReferenceIdeal.S1600000x50, .f32⟩ : BufTy).Contents (Elt Ideal)) (x5 : (⟨Cert.ReferenceIdeal.S95x128, .f32⟩ : BufTy).Contents (Elt Ideal)) (x6 : (⟨Cert.ReferenceIdeal.S128x50, .f32⟩ : BufTy).Contents (Elt Ideal))
    (x7 : (⟨Cert.ReferenceIdeal.S128, .f32⟩ : BufTy).Contents (Elt Ideal)) : Vec Ideal Cert.KernelIdeal.S1600000x128 .f32 :=
  Cert.KernelIdeal.Edge.whole x4 (denseWeights x6) (rowOf x7) (lengthColumn x3) (Cert.ReferenceIdeal.Read.val_main_v33 (F := Ideal) x0 x2 x5)

/-- The messages summed into each edge's first endpoint. -/
def aggregate (x0 : (⟨Cert.ReferenceIdeal.S100000, .i32⟩ : BufTy).Contents (Elt Ideal)) (x2 : (⟨Cert.ReferenceIdeal.S2x1600000, .i32⟩ : BufTy).Contents (Elt Ideal)) (x3 : (⟨Cert.ReferenceIdeal.S1600000, .f32⟩ : BufTy).Contents (Elt Ideal))
    (x4 : (⟨Cert.ReferenceIdeal.S1600000x50, .f32⟩ : BufTy).Contents (Elt Ideal)) (x5 : (⟨Cert.ReferenceIdeal.S95x128, .f32⟩ : BufTy).Contents (Elt Ideal)) (x6 : (⟨Cert.ReferenceIdeal.S128x50, .f32⟩ : BufTy).Contents (Elt Ideal))
    (x7 : (⟨Cert.ReferenceIdeal.S128, .f32⟩ : BufTy).Contents (Elt Ideal)) : Vec Ideal Cert.KernelIdeal.S100000x128 .f32 :=
  Host.scatterAdd (F := Ideal) (φ := .f32) Cert.ReferenceIdeal.scatter_S100000x128_S1600000x1_S1600000x128_1_0_0_1
    (Cert.ReferenceIdeal.Read.val_main_v35 (F := Ideal)) (Cert.ReferenceIdeal.Read.val_main_v43 (F := Ideal) x2) (messages x0 x2 x3 x4 x5 x6 x7)

/-- The layer's output. -/
def result (x0 : (⟨Cert.ReferenceIdeal.S100000, .i32⟩ : BufTy).Contents (Elt Ideal)) (x1 : (⟨Cert.ReferenceIdeal.S100000x128, .f32⟩ : BufTy).Contents (Elt Ideal)) (x2 : (⟨Cert.ReferenceIdeal.S2x1600000, .i32⟩ : BufTy).Contents (Elt Ideal))
    (x3 : (⟨Cert.ReferenceIdeal.S1600000, .f32⟩ : BufTy).Contents (Elt Ideal)) (x4 : (⟨Cert.ReferenceIdeal.S1600000x50, .f32⟩ : BufTy).Contents (Elt Ideal)) (x5 : (⟨Cert.ReferenceIdeal.S95x128, .f32⟩ : BufTy).Contents (Elt Ideal))
    (x6 : (⟨Cert.ReferenceIdeal.S128x50, .f32⟩ : BufTy).Contents (Elt Ideal)) (x7 : (⟨Cert.ReferenceIdeal.S128, .f32⟩ : BufTy).Contents (Elt Ideal)) (x8 : (⟨Cert.ReferenceIdeal.S128x256, .f32⟩ : BufTy).Contents (Elt Ideal))
    (x9 : (⟨Cert.ReferenceIdeal.S128, .f32⟩ : BufTy).Contents (Elt Ideal)) : Vec Ideal Cert.KernelIdeal.S100000x128 .f32 :=
  Cert.KernelIdeal.Combine.whole x1 (aggregate x0 x2 x3 x4 x5 x6 x7) (weightsLo x8) (weightsHi x8) (rowOf x9)

end Cert.Whole

end
-- ==== Proof.KernelValue.lean ====
/-
  The idealized kernel's result array as the layer's function of the ten arguments.

  Read backwards from the end of the run: the result is what the combine region leaves, a function of the arrays it
  is entered with; those are the second host stretch's readings of what the edge region leaves and of arguments
  nobody has written; the edge region's output is a function of the first stretch's readings of the arguments.
-/
import proofs.«147884_j19808389169521_2_alg».proof.Proof.KernelRun
import proofs.«147884_j19808389169521_2_alg».proof.Proof.Stretches
import proofs.«147884_j19808389169521_2_alg».proof.Proof.Result

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Arguments the edge region does not write, at the boundary after it -/

theorem kept1 (c : Dev nD) : W2 m ρ c (Proc.devRef .tc main_arg1) = m ((c : Thread nD τ).loc main_arg1) :=
  (W2_of_ne m ρ c main_arg1 (by decide)).trans ((Stretch.first_arg1 (W0 m ρ c)).trans rfl)
theorem kept2 (c : Dev nD) : W2 m ρ c (Proc.devRef .tc main_arg2) = m ((c : Thread nD τ).loc main_arg2) :=
  (W2_of_ne m ρ c main_arg2 (by decide)).trans ((Stretch.first_arg2 (W0 m ρ c)).trans rfl)
theorem kept8 (c : Dev nD) : W2 m ρ c (Proc.devRef .tc main_arg8) = m ((c : Thread nD τ).loc main_arg8) :=
  (W2_of_ne m ρ c main_arg8 (by decide)).trans ((Stretch.first_arg8 (W0 m ρ c)).trans rfl)
theorem kept9 (c : Dev nD) : W2 m ρ c (Proc.devRef .tc main_arg9) = m ((c : Thread nD τ).loc main_arg9) :=
  (W2_of_ne m ρ c main_arg9 (by decide)).trans ((Stretch.first_arg9 (W0 m ρ c)).trans rfl)

/-- What the edge region leaves in its output array: the layer's messages. -/
theorem messages_eq (c : Dev nD) : W2 m ρ c (Proc.devRef .tc main_v19)
    = Cert.Whole.messages (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e4 : V1 m ρ c main_arg4 = m ((c : Thread nD τ).loc main_arg4) := (Stretch.first_arg4 (W0 m ρ c)).trans rfl
  have e16 : V1 m ρ c main_v16 = Cert.Whole.denseWeights (m ((c : Thread nD τ).loc main_arg6)) := (Stretch.first_weights (W0 m ρ c)).trans rfl
  have e17 : V1 m ρ c main_v17 = Cert.Whole.rowOf (m ((c : Thread nD τ).loc main_arg7)) := (Stretch.first_bias (W0 m ρ c)).trans rfl
  have e18 : V1 m ρ c main_v18 = Cert.Whole.lengthColumn (m ((c : Thread nD τ).loc main_arg3)) := (Stretch.first_lengths (W0 m ρ c)).trans rfl
  have e15 : V1 m ρ c main_v15 = Cert.ReferenceIdeal.Read.val_main_v33 (F := Ideal) (m ((c : Thread nD τ).loc main_arg0)) (m ((c : Thread nD τ).loc main_arg2)) (m ((c : Thread nD τ).loc main_arg5)) :=
    (Stretch.first_neighbours (W0 m ρ c)).trans rfl
  refine (W2_arr m ρ c 5).trans ((Edge.final (V1 m ρ) c).trans ?_)
  rw [e4, e16, e17, e18, e15]
  rfl

/-- What the combine region leaves in the result array: the layer's output. -/
theorem result_eq (c : Dev nD) : W4 m ρ c (Proc.devRef .tc main_v35)
    = Cert.Whole.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e1 : V3 m ρ c main_arg1 = m ((c : Thread nD τ).loc main_arg1) := (Stretch.second_arg1 (W2 m ρ c)).trans (kept1 m ρ c)
  have e29 : V3 m ρ c main_v29 = Cert.Whole.aggregate (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    refine (Stretch.second_aggregate (W2 m ρ c)).trans ?_
    rw [kept2 m ρ c, messages_eq m ρ c]
    rfl
  have e31 : V3 m ρ c main_v31 = Cert.Whole.weightsLo (m ((c : Thread nD τ).loc main_arg8)) := by
    refine (Stretch.second_weights_lo (W2 m ρ c)).trans ?_
    rw [kept8 m ρ c]
    rfl
  have e33 : V3 m ρ c main_v33 = Cert.Whole.weightsHi (m ((c : Thread nD τ).loc main_arg8)) := by
    refine (Stretch.second_weights_hi (W2 m ρ c)).trans ?_
    rw [kept8 m ρ c]
    rfl
  have e34 : V3 m ρ c main_v34 = Cert.Whole.rowOf (m ((c : Thread nD τ).loc main_arg9)) := by
    refine (Stretch.second_bias (W2 m ρ c)).trans ?_
    rw [kept9 m ρ c]
    rfl
  refine (W4_arr m ρ c 5).trans ((Combine.final (V3 m ρ) c).trans ?_)
  rw [e1, e29, e31, e33, e34]
  rfl

/-- The idealized kernel's run with its result array at the layer's output of the launch arguments. -/
theorem run : θ_run defs (onTc (τ := τ) (main (F := Ideal))) ⟨m, fun _ => 0, ρ⟩ (fun r => ∀ c : Dev nD,
      r.2.mem ((c.tc : Thread nD τ).loc main_v35)
        = Cert.Whole.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Named.run_named m ρ)

end Cert.KernelIdeal.Whole

end
-- ==== Proof.Bridge.lean ====
/-
  The idealized reference computes the same layer.

  Entry by entry: the reference's cutoff chain on an edge's length is the cutoff; its message at (e, h) is the dense
  entry times the cutoff times the gathered embedding, the kernel's message; and its output at (n, h) contracts the
  256 columns of [features | aggregate] against the transposed combine weights, which is the contraction over the
  first 128 columns (the features against the first half of the weights) plus the one over the last 128 (the
  aggregate against the second half) — a finite sum split in two, which needs only that addition of extended reals
  is commutative and associative, so no finiteness of the inputs is used.
-/
import proofs.«147884_j19808389169521_2_alg».proof.Proof.Result
import Idealize.ShloMosaic.Lib.ValueIdx
import Idealize.ShloMosaic.Lib.ValueLayout
import Idealize.ShloMosaic.Lib.Pipeline.Value

noncomputable section

open scoped BigOperators

namespace Cert.ReferenceIdeal.Bridge

open Cert.ReferenceIdeal Cert.ReferenceIdeal.Read
open Idealize.ShloMosaic Idealize.ShloMosaic.ValueIdx
open Cert.KernelIdeal.Bodies (cutoff)

/-- The reference's chain on one edge length — times π/5, cosine, plus one, halved, kept below the cutoff radius and
    zero from it on — is the cutoff. -/
theorem ref_cutoff (x3 : (⟨S1600000, .f32⟩ : BufTy).Contents (Elt Ideal)) (e : Fin 1600000) :
    val_main_v9 (F := Ideal) x3 (ix1 e) = cutoff (x3 (ix1 e)) := by
  simp only [val_main_v9_apply, val_main_v8_apply, val_main_v7_apply, val_main_cst_2_apply, val_main_v6_apply,
    val_main_v5_apply, val_main_cst_1_apply, val_main_v4_apply, val_main_v3_apply, val_main_cst_0_apply,
    val_main_v2_apply, val_main_v1_apply, val_main_v0_apply, val_main_cst_apply, val_main_call0_v1_apply,
    val_main_call0_v0_apply, val_main_cst_3_apply]
  rfl

/-- The reference's messages are the layer's. -/
theorem ref_messages (x0 : (⟨S100000, .i32⟩ : BufTy).Contents (Elt Ideal)) (x2 : (⟨S2x1600000, .i32⟩ : BufTy).Contents (Elt Ideal)) (x3 : (⟨S1600000, .f32⟩ : BufTy).Contents (Elt Ideal))
    (x4 : (⟨S1600000x50, .f32⟩ : BufTy).Contents (Elt Ideal)) (x5 : (⟨S95x128, .f32⟩ : BufTy).Contents (Elt Ideal)) (x6 : (⟨S128x50, .f32⟩ : BufTy).Contents (Elt Ideal)) (x7 : (⟨S128, .f32⟩ : BufTy).Contents (Elt Ideal)) :
    val_main_v34 (F := Ideal) x0 x2 x3 x4 x5 x6 x7 = Cert.Whole.messages x0 x2 x3 x4 x5 x6 x7 := by
  funext i
  obtain ⟨e, h, rfl⟩ : ∃ (e : Fin 1600000) (h : Fin 128), i = ix2 e h := ⟨i 0, i 1, eq_ix2 i⟩
  have hl : ∀ k : Fin 50, lidx_main_v11 (ix2 e h) k = ix2 e k := fun k => funext fun a => by
    match a with
    | ⟨0, _⟩ => rfl
    | ⟨1, _⟩ => rfl
  have hr : ∀ k : Fin 50, ridx_main_v11 (ix2 e h) k = ix2 k h := fun k => funext fun a => by
    match a with
    | ⟨0, _⟩ => rfl
    | ⟨1, _⟩ => rfl
  have hb : idx_main_v12 (idx_main_v13 (ix2 e h)) = ix1 h := funext fun a => by
    match a with
    | ⟨0, _⟩ => rfl
  have hc : idx_main_v15 (idx_main_v16 (ix2 e h)) = ix1 e := funext fun a => by
    match a with
    | ⟨0, _⟩ => rfl
  show val_main_v34 (F := Ideal) x0 x2 x3 x4 x5 x6 x7 (ix2 e h)
    = Cert.KernelIdeal.Edge.entry x4 (Cert.Whole.denseWeights x6) (Cert.Whole.rowOf x7) (Cert.Whole.lengthColumn x3)
        (val_main_v33 (F := Ideal) x0 x2 x5) e h
  rw [val_main_v34_apply, val_main_v17_apply, val_main_v14_apply, val_main_v11_apply, val_main_v13_apply,
    val_main_v12_apply, val_main_v16_apply, val_main_v15_apply, hb, hc, ref_cutoff]
  simp only [hl, hr]
  unfold Cert.KernelIdeal.Edge.entry Cert.Whole.rowOf Cert.Whole.lengthColumn
  rw [shapeCast_a_1a_apply, Cert.DenseRows.shapeCast_a_a1_apply]
  rfl

/-- The reference's output is the layer's. -/
theorem ref_result (x0 : (⟨S100000, .i32⟩ : BufTy).Contents (Elt Ideal)) (x1 : (⟨S100000x128, .f32⟩ : BufTy).Contents (Elt Ideal)) (x2 : (⟨S2x1600000, .i32⟩ : BufTy).Contents (Elt Ideal)) (x3 : (⟨S1600000, .f32⟩ : BufTy).Contents (Elt Ideal))
    (x4 : (⟨S1600000x50, .f32⟩ : BufTy).Contents (Elt Ideal)) (x5 : (⟨S95x128, .f32⟩ : BufTy).Contents (Elt Ideal)) (x6 : (⟨S128x50, .f32⟩ : BufTy).Contents (Elt Ideal)) (x7 : (⟨S128, .f32⟩ : BufTy).Contents (Elt Ideal))
    (x8 : (⟨S128x256, .f32⟩ : BufTy).Contents (Elt Ideal)) (x9 : (⟨S128, .f32⟩ : BufTy).Contents (Elt Ideal)) :
    val_main_v50 (F := Ideal) x0 x1 x2 x3 x4 x5 x6 x7 x8 x9 = Cert.Whole.result x0 x1 x2 x3 x4 x5 x6 x7 x8 x9 := by
  have hagg : val_main_v44 (F := Ideal) x0 x2 x3 x4 x5 x6 x7 = Cert.Whole.aggregate x0 x2 x3 x4 x5 x6 x7 := by
    unfold val_main_v44 Cert.Whole.aggregate
    rw [ref_messages]
  funext i
  obtain ⟨n, h, rfl⟩ : ∃ (n : Fin 100000) (h : Fin 128), i = ix2 n h := ⟨i 0, i 1, eq_ix2 i⟩
  show val_main_v50 (F := Ideal) x0 x1 x2 x3 x4 x5 x6 x7 x8 x9 (ix2 n h)
    = Cert.KernelIdeal.Combine.entry x1 (Cert.Whole.aggregate x0 x2 x3 x4 x5 x6 x7) (Cert.Whole.weightsLo x8) (Cert.Whole.weightsHi x8)
        (Cert.Whole.rowOf x9) n h
  rw [← hagg, val_main_v50_apply, val_main_v47_apply, val_main_v49_apply, val_main_v48_apply]
  unfold Cert.KernelIdeal.Combine.entry
  have hbias : x9 (idx_main_v48 (idx_main_v49 (ix2 n h))) = Cert.Whole.rowOf x9 (ix2 (0 : Fin 1) h) := by
    unfold Cert.Whole.rowOf
    rw [shapeCast_a_1a_apply]
    exact congrArg x9 (funext fun a => by
      match a with
      | ⟨0, _⟩ => rfl)
  refine congrArg₂ (· + ·) ?_ hbias
  refine (Fin.sum_univ_add (a := 128) (b := 128) (fun k : Fin (128 + 128) =>
    (val_main_v45 (F := Ideal) x0 x1 x2 x3 x4 x5 x6 x7) (lidx_main_v47 (ix2 n h) k)
      * (val_main_v46 (F := Ideal) x8) (ridx_main_v47 (ix2 n h) k))).trans ?_
  refine congrArg₂ (· + ·) (Finset.sum_congr rfl fun k _ => ?_) (Finset.sum_congr rfl fun k _ => ?_)
  · -- a column below 128 reads the node's own features, against the first half of the weights
    have hk : k.val < 128 := k.isLt
    refine congrArg₂ (· * ·) ?_ ?_
    · unfold val_main_v45
      exact concatenate_pair_apply_left (t := S100000x256) (s₁ := S100000x128) (s₂ := S100000x128) 1 x1 _ _
        (lidx_main_v47 (ix2 n h) (Fin.castAdd 128 k)) rfl (ix2 n k) (fun b => by
        match b with
        | ⟨0, _⟩ => rfl
        | ⟨1, _⟩ => rfl)
    · rw [val_main_v46_apply]
      unfold Cert.Whole.weightsLo
      rw [transpose_ix2_apply, slice2_axis1_apply 0 x8 _ h k ⟨k.val, by omega⟩ (by simp)]
      exact congrArg x8 (funext fun a => by
        match a with
        | ⟨0, _⟩ => rfl
        | ⟨1, _⟩ => rfl)
  · -- a column from 128 on reads the aggregate, against the second half of the weights
    have hk : k.val < 128 := k.isLt
    refine congrArg₂ (· * ·) ?_ ?_
    · unfold val_main_v45
      exact concatenate_pair_apply_right (t := S100000x256) (s₁ := S100000x128) (s₂ := S100000x128) 1 x1 _ _
        (lidx_main_v47 (ix2 n h) (Fin.natAdd 128 k)) rfl rfl (ix2 n k) (fun b hb => by
        match b with
        | ⟨0, _⟩ => rfl
        | ⟨1, _⟩ => exact absurd rfl hb) (by show k.val + 128 = 128 + k.val; omega)
    · rw [val_main_v46_apply]
      unfold Cert.Whole.weightsHi
      rw [transpose_ix2_apply, slice2_axis1_apply 128 x8 _ h k ⟨128 + k.val, by omega⟩ rfl]
      exact congrArg x8 (funext fun a => by
        match a with
        | ⟨0, _⟩ => rfl
        | ⟨1, _⟩ => rfl)

end Cert.ReferenceIdeal.Bridge

end
-- ==== Proof.lean ====
/-
  A message-passing layer on a graph of 100000 nodes and 1600000 edges, as a tiled kernel program and as a plain
  array program, computes one function on the extended reals.

  Per edge e with endpoints (i, j), length r and a 50-vector of attributes a: the message is
  (W a + b) · cutoff (r) · emb (type of node j), a 128-vector, where cutoff (r) = ½ (cos (r · π/5) + 1) for r < 5 and 0
  otherwise; the messages are summed into node i; and node n's output is C [features n ; sum n] + c with C a 128 × 256
  matrix. The kernel program computes the messages block by block in one pipelined region (125 blocks of 12800 edges),
  scatter-adds them between the regions, and applies C in a second region (10 blocks of 10000 nodes) as two 128-column
  products — features against columns 0 … 127 of C, sums against columns 128 … 255 — where the array program
  concatenates and multiplies once. Read on the extended reals, with every constant the value of its bit pattern (the two
  programs carry the same five patterns), the messages agree entry by entry, the look-ups and the scatter-add are the
  same operations of the same arguments, and one 256-term sum is the sum of its two 128-term halves; addition of
  extended reals being commutative and associative, nothing needs the inputs to be finite.

  The three frame claims are the generated frames (the reference's is its generated run with the result dropped); the
  idealization rewrote nothing, so its claim is trivial.
-/
import proofs.«147884_j19808389169521_2_alg».proof.Defs
import proofs.«147884_j19808389169521_2_alg».proof.Proof.Gen.Kernel
import proofs.«147884_j19808389169521_2_alg».proof.Proof.Gen.Kernel.Skeleton
import proofs.«147884_j19808389169521_2_alg».proof.Proof.Gen.Kernel.Launch
import proofs.«147884_j19808389169521_2_alg».proof.Proof.Gen.Kernel.Points
import proofs.«147884_j19808389169521_2_alg».proof.Proof.Gen.Kernel.Frame
import proofs.«147884_j19808389169521_2_alg».proof.Proof.Gen.KernelIdeal
import proofs.«147884_j19808389169521_2_alg».proof.Proof.Gen.KernelIdeal.Skeleton
import proofs.«147884_j19808389169521_2_alg».proof.Proof.Gen.KernelIdeal.Launch
import proofs.«147884_j19808389169521_2_alg».proof.Proof.Gen.KernelIdeal.Points
import proofs.«147884_j19808389169521_2_alg».proof.Proof.Gen.KernelIdeal.Frame
import proofs.«147884_j19808389169521_2_alg».proof.Proof.Gen.ReferenceIdeal
import proofs.«147884_j19808389169521_2_alg».proof.Proof.Gen.ReferenceIdeal.Run
import proofs.«147884_j19808389169521_2_alg».proof.Proof.Gen.ReferenceIdeal.Read
import proofs.«147884_j19808389169521_2_alg».proof.Proof.Gen.Pre_finite_inputs
import proofs.«147884_j19808389169521_2_alg».proof.Proof.KernelValue
import proofs.«147884_j19808389169521_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's output of the (agreeing) arguments in their result arrays. -/
theorem algebraic : Cert.algebraic_KernelIdeal_ReferenceIdeal := by
  intro m ρ m' ρ' _ hagree
  refine ⟨fun c => Cert.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v50_eq, Cert.ReferenceIdeal.Bridge.ref_result, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
